-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S64 : Shape := ⟨1, ![64]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S8x4096x1024 .f32) (main_arg1 : FVec F S64 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S8x4096x1024 : Shape := ⟨3, ![8, 4096, 1024]⟩
abbrev S64 : Shape := ⟨1, ![64]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S32768x1024 : Shape := ⟨2, ![32768, 1024]⟩
abbrev S2048x1024 : Shape := ⟨2, ![2048, 1024]⟩

abbrev nBuf : Space → Nat
  | .hbm => 10
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S16x64, .f32⟩
  | .hbm, ⟨5, _⟩ => ⟨S1024, .f32⟩
  | .hbm, ⟨6, _⟩ => ⟨S1x1024, .f32⟩
  | .hbm, ⟨7, _⟩ => ⟨S32768x1024, .f32⟩
  | .hbm, ⟨8, _⟩ => ⟨S32768x1024, .f32⟩
  | .hbm, ⟨9, _⟩ => ⟨S8x4096x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S2048x1024, .f32⟩
  | .local _ .vmem, ⟨4, _⟩ => ⟨S2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64_S1x64 : S64.ShapeCasts S1x64
  bcast_S1x64_S16x64_0_1 : S1x64.BroadcastsInDim S16x64 (![0, 1] : Fin 2 → Fin S16x64.rank)
  shapeCasts_S16x64_S1024 : S16x64.ShapeCasts S1024
  shapeCasts_S1024_S1x1024 : S1024.ShapeCasts S1x1024
  shapeCasts_S8x4096x1024_S32768x1024 : S8x4096x1024.ShapeCasts S32768x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S32768x1024_S8x4096x1024 : S32768x1024.ShapeCasts S8x4096x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S32768x1024.size a
  hwx0_2 : ∀ i : grid0.Coords, EltTy.bits .f32 = 32 ∨ (Rect.block (s := S32768x1024) S2048x1024.size (cc0_transform_2 i) (hinb0_2 i)).WholeWords (EltTy.packing .f32)

variable [Facts₀]

abbrev win0_0 : Pipeline.Window sig grid0 :=
  Pipeline.Window.ofSpec (Memref.whole main_v5) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S8x4096x1024 : Shape := ⟨3, ![8, 4096, 1024]⟩
abbrev S64 : Shape := ⟨1, ![64]⟩
abbrev S8x4096x16x64 : Shape := ⟨4, ![8, 4096, 16, 64]⟩
abbrev S1x1x1x64 : Shape := ⟨4, ![1, 1, 1, 64]⟩

abbrev nBuf : Space → Nat
  | .hbm => 9
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S64, .f32⟩
  | .hbm, ⟨2, _⟩ => ⟨S8x4096x16x64, .f32⟩
  | .hbm, ⟨3, _⟩ => ⟨S8x4096x16x64, .f32⟩
  | .hbm, ⟨4, _⟩ => ⟨S64, .f32⟩
  | .hbm, ⟨5, _⟩ => ⟨S1x1x1x64, .f32⟩
  | .hbm, ⟨6, _⟩ => ⟨S8x4096x16x64, .f32⟩
  | .hbm, ⟨7, _⟩ => ⟨S8x4096x16x64, .f32⟩
  | .hbm, ⟨8, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  shapeCasts_S8x4096x1024_S8x4096x16x64 : S8x4096x1024.ShapeCasts S8x4096x16x64
  bcast_S64_S1x1x1x64_3 : S64.BroadcastsInDim S1x1x1x64 (![3] : Fin 1 → Fin S1x1x1x64.rank)
  bcast_S1x1x1x64_S8x4096x16x64_0_1_2_3 : S1x1x1x64.BroadcastsInDim S8x4096x16x64 (![0, 1, 2, 3] : Fin 4 → Fin S8x4096x16x64.rank)
  shapeCasts_S8x4096x16x64_S8x4096x1024 : S8x4096x16x64.ShapeCasts S8x4096x1024

variable [Facts₀]

class Facts : Prop extends Facts₀ where

variable [Facts]
-- ==== Proof.Spec.lean ====
/-
  The function both programs compute, on the extended reals.

  The input `x` has shape [8, 4096, 1024]; its last axis of 1024 features is 16 heads of 64 wires each, feature `e` being
  wire `e mod 64` of head `e / 64`. The angles `θ` are one per wire, shared by all heads and all tokens. The result at
  `(b, s, e)` is `cos x[b, s, e] · cos θ[e mod 64]`.
-/
import Idealize.ShloMosaic.PureOps.Ideal
import Idealize.ShloMosaic.Lib.ValueIdx

noncomputable section

namespace Cert.WireCos

open Idealize.ShloMosaic Idealize.ShloMosaic.ValueIdx

/-- The input's shape: batch, tokens, features. -/
abbrev SX : Shape := ⟨3, ![8, 4096, 1024]⟩
/-- The angles' shape: one per wire. -/
abbrev SΘ : Shape := ⟨1, ![64]⟩

/-- The wire a feature belongs to: its position inside its head of 64. -/
def wire (i : SX.Idx) : SΘ.Idx := ix1 ⟨(i 2).val % 64, Nat.mod_lt _ (by decide)⟩

/-- The result, index by index: the cosine of the input times the cosine of its wire's angle. -/
def G (x : SX.Idx → EReal) (θ : SΘ.Idx → EReal) : SX.Idx → EReal :=
  fun i => Ideal.cos (x i) * Ideal.cos (θ (wire i))

theorem G_apply (x : SX.Idx → EReal) (θ : SΘ.Idx → EReal) (i : SX.Idx) :
    G x θ i = Ideal.cos (x i) * Ideal.cos (θ (wire i)) := rfl

end Cert.WireCos

end
-- ==== Proof.RefValue.lean ====
/-
  The reference, read index by index, is the specification.

  The reference views the 1024 features as 16 heads of 64 wires, takes cosines, multiplies by the cosines of the angles
  broadcast over batch, tokens and heads, and flattens heads and wires back to 1024 features. Flattening after
  splitting returns each index to itself, and the wire coordinate of the split index is the feature modulo 64.
-/
import proofs.«100494_j65481071401834_2_alg».proof.Proof.Gen.ReferenceIdeal.Read
import proofs.«100494_j65481071401834_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx Cert.WireCos

/-- Splitting the features into heads and wires and reading the input back where the split index came from is the
    identity on indices: both are the same row-major position. -/
theorem split_flatten (i : S8x4096x1024.Idx) : idx_main_v0 (idx_main_v6 i) = i := by
  have h0 : (i 0).val < 8 := (i 0).isLt
  have h1 : (i 1).val < 4096 := (i 1).isLt
  have h2 : (i 2).val < 1024 := (i 2).isLt
  funext a; apply Fin.ext
  match a with
  | ⟨0, _⟩ =>
    show (((((((i 0).val * 4096 + (i 1).val) * 1024 + (i 2).val) / 4194304) * 4096 + (((i 0).val * 4096 + (i 1).val) * 1024 + (i 2).val) / 1024 % 4096) * 16 + (((i 0).val * 4096 + (i 1).val) * 1024 + (i 2).val) / 64 % 16) * 64 + (((i 0).val * 4096 + (i 1).val) * 1024 + (i 2).val) % 64) / 4194304 = (i 0).val
    omega
  | ⟨1, _⟩ =>
    show (((((((i 0).val * 4096 + (i 1).val) * 1024 + (i 2).val) / 4194304) * 4096 + (((i 0).val * 4096 + (i 1).val) * 1024 + (i 2).val) / 1024 % 4096) * 16 + (((i 0).val * 4096 + (i 1).val) * 1024 + (i 2).val) / 64 % 16) * 64 + (((i 0).val * 4096 + (i 1).val) * 1024 + (i 2).val) % 64) / 1024 % 4096 = (i 1).val
    omega
  | ⟨2, _⟩ =>
    show (((((((i 0).val * 4096 + (i 1).val) * 1024 + (i 2).val) / 4194304) * 4096 + (((i 0).val * 4096 + (i 1).val) * 1024 + (i 2).val) / 1024 % 4096) * 16 + (((i 0).val * 4096 + (i 1).val) * 1024 + (i 2).val) / 64 % 16) * 64 + (((i 0).val * 4096 + (i 1).val) * 1024 + (i 2).val) % 64) % 1024 = (i 2).val
    omega

/-- The angle the reference multiplies by at a feature is its wire's: the split index's last coordinate is the
    row-major position modulo 64, and 64 divides 1024. -/
theorem angle_index (i : S8x4096x1024.Idx) : idx_main_v3 (idx_main_v4 (idx_main_v6 i)) = wire i := by
  have h2 : (i 2).val < 1024 := (i 2).isLt
  funext a; apply Fin.ext
  match a with
  | ⟨0, _⟩ =>
    show (((i 0).val * 4096 + (i 1).val) * 1024 + (i 2).val) % 64 = (i 2).val % 64
    omega

/-- The reference's result is the specification. -/
theorem ref_eq (x : (⟨S8x4096x1024, .f32⟩ : BufTy).Contents (Elt Ideal)) (θ : (⟨S64, .f32⟩ : BufTy).Contents (Elt Ideal)) :
    val_main_v6 (F := Ideal) x θ = G x θ := by
  funext i
  rw [val_main_v6_apply, val_main_v5_apply, val_main_v1_apply, val_main_v0_apply, val_main_v4_apply, val_main_v3_apply,
    val_main_v2_apply, split_flatten, angle_index]
  rfl

end Cert.ReferenceIdeal.RefValue

end
-- ==== Proof.KernelValue.lean ====
/-
  The kernel's arithmetic, read index by index.

  The kernel sees the input as a matrix of 32768 token rows by 1024 features, and the angles as ONE row of 1024
  cosines: the 64 cosines of the angles repeated for each of the 16 heads. A block of 2048 token rows is mapped entry
  by entry to the cosine of the entry times the row's cosine in the same column. Read through the matrix view, that is
  the specification: the row's entry in column `e` is the cosine of the angle of wire `e mod 64`.
-/
import proofs.«100494_j65481071401834_2_alg».proof.Proof.Gen.KernelIdeal.Skeleton
import proofs.«100494_j65481071401834_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KernelValue

open Cert.KernelIdeal Cert.KernelIdeal.Gen
open Idealize.ShloMosaic Idealize.ShloMosaic.ValueIdx Cert.WireCos

/-- A matrix of token rows mapped entry by entry: the cosine of the entry times the one row's entry in the same
    column. Stated for any number of rows, so that it reads a block of rows and the whole matrix alike. -/
def cosTimesRow {n : Nat} (X : (⟨2, ![n, 1024]⟩ : Shape).Idx → EReal) (r : S1x1024.Idx → EReal) :
    (⟨2, ![n, 1024]⟩ : Shape).Idx → EReal :=
  fun j => Ideal.cos (X j) * r (ix2 (0 : Fin 1) (j 1))

/-- The body's stored value is that map of its two loaded blocks: the shape casts are identities, and the broadcast
    of the one row down the 2048 rows reads the row at the entry's column. -/
theorem pay_eq (x0 : Vec Ideal S2048x1024 .f32) (x1 : Vec Ideal S1x1024 .f32) :
    k0_pay1 (F := Ideal) x0 x1 = cosTimesRow x0 x1 := by
  funext j
  obtain ⟨p, q, rfl⟩ : ∃ (p : Fin 2048) (q : Fin 1024), j = ix2 p q := ⟨j 0, j 1, eq_ix2 j⟩
  unfold k0_pay1
  rw [mulf_apply, broadcastTo_1b_ab_apply, shapeCast_self, shapeCast_self]
  rfl

/-- The row of cosines the host prepares: the cosines of the 64 angles, as a [1, 64] row, repeated down 16 rows,
    flattened to 1024 entries, as a [1, 1024] row. -/
def cosRow (θ : FVec Ideal S64 .f32) : FVec Ideal S1x1024 .f32 :=
  shapeCast S1x1024
    (shapeCast S1024
      (broadcastInDim S16x64 ![0, 1] bcast_S1x64_S16x64_0_1
        (shapeCast S1x64 (Host.cos θ) shapeCasts_S64_S1x64))
      shapeCasts_S16x64_S1024)
    shapeCasts_S1024_S1x1024

/-- Its entry in column `q` is the cosine of the angle of wire `q mod 64`: column `q` of the flattened [16, 64] array
    is its entry `(q / 64, q mod 64)`, every one of whose 16 rows is the row of 64 cosines. -/
theorem cosRow_apply (θ : FVec Ideal S64 .f32) (q : Fin 1024) :
    cosRow θ (ix2 (0 : Fin 1) q) = Ideal.cos (θ (ix1 ⟨q.val % 64, Nat.mod_lt _ (by decide)⟩)) := by
  have hq : q.val < 1024 := q.isLt
  unfold cosRow
  refine (shapeCast_a_1a_apply _ shapeCasts_S1024_S1x1024 (0 : Fin 1) q).trans ?_
  refine (shapeCast_apply _ shapeCasts_S16x64_S1024 (ix1 q)
    (ix2 (⟨q.val / 64, by omega⟩ : Fin 16) (⟨q.val % 64, Nat.mod_lt _ (by decide)⟩ : Fin 64))
    (by rw [Shape.rowMajor_val_two, Shape.rowMajor_val_one]; show q.val / 64 * 64 + q.val % 64 = q.val; omega)).trans ?_
  refine (broadcastInDim_apply _ bcast_S1x64_S16x64_0_1 _ _
    (ix2 (0 : Fin 1) (⟨q.val % 64, Nat.mod_lt _ (by decide)⟩ : Fin 64)) (fun a => match a with
      | ⟨0, _⟩ => by show 0 = if (1 : Nat) = 1 then 0 else q.val / 64; rw [if_pos rfl]
      | ⟨1, _⟩ => by show q.val % 64 = if (64 : Nat) = 1 then 0 else q.val % 64; rw [if_neg (by decide)])).trans ?_
  refine (shapeCast_a_1a_apply _ shapeCasts_S64_S1x64 (0 : Fin 1) _).trans ?_
  rfl

/-- The whole computation is the specification: the input viewed as a matrix of token rows, mapped entry by entry
    against the row of cosines, and viewed again as [8, 4096, 1024]. Entry `(b, s, e)` sits at row `b·4096 + s`,
    column `e` of the matrix, at the same row-major position in both views. -/
theorem whole_eq (x : FVec Ideal S8x4096x1024 .f32) (θ : FVec Ideal S64 .f32) :
    shapeCast S8x4096x1024
      (cosTimesRow (shapeCast S32768x1024 x shapeCasts_S8x4096x1024_S32768x1024) (cosRow θ))
      shapeCasts_S32768x1024_S8x4096x1024 = G x θ := by
  funext i
  obtain ⟨b, s, e, rfl⟩ : ∃ (b : Fin 8) (s : Fin 4096) (e : Fin 1024), i = ix3 b s e := ⟨i 0, i 1, i 2, eq_ix3 i⟩
  have hb : b.val < 8 := b.isLt
  have hs : s.val < 4096 := s.isLt
  refine (shapeCast_apply _ shapeCasts_S32768x1024_S8x4096x1024 (ix3 b s e)
    (ix2 (⟨b.val * 4096 + s.val, by omega⟩ : Fin 32768) e)
    (by rw [Shape.rowMajor_val_two, Shape.rowMajor_val_three]; rfl)).trans ?_
  show Ideal.cos (shapeCast S32768x1024 x shapeCasts_S8x4096x1024_S32768x1024 (ix2 (⟨b.val * 4096 + s.val, by omega⟩ : Fin 32768) e))
      * cosRow θ (ix2 (0 : Fin 1) e) = _
  rw [cosRow_apply, shapeCast_apply x shapeCasts_S8x4096x1024_S32768x1024 (ix2 (⟨b.val * 4096 + s.val, by omega⟩ : Fin 32768) e)
    (ix3 b s e) (by rw [Shape.rowMajor_val_two, Shape.rowMajor_val_three]; rfl)]
  rfl

end Cert.KernelIdeal.KernelValue

end
-- ==== Proof.KernelArray.lean ====
/-
  The kernel's output matrix after the run.

  The grid has 16 points; point `t` works on token rows `2048·t … 2048·t + 2047`, all 1024 features, and every point
  sees the same one row of cosines. So what point `t` writes back is rows `2048·t …` of ONE matrix — the entry-by-entry
  map of the whole input matrix against the row of cosines — and since the 16 blocks of 2048 rows tile the 32768
  rows, the output matrix ends as that whole map.
-/
import proofs.«100494_j65481071401834_2_alg».proof.Proof.Gen.KernelIdeal.Frame
import proofs.«100494_j65481071401834_2_alg».proof.Proof.KernelValue
import Idealize.ShloMosaic.Lib.Pipeline.Value
import Idealize.ShloMosaic.Lib.StableHlo.Run

set_option maxRecDepth 16384

noncomputable section

namespace Cert.KernelIdeal.KernelArray

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.KernelValue

variable (m : (ℓ : Loc nD τ sig) → Buf (Elt Ideal) ℓ) (ρ : Dev nD → PrngReg)

/-! ## The arrays as the region finds them -/

/-- The input matrix the region reads is the input array viewed as 32768 token rows. -/
theorem entry_matrix (c : Dev nD) :
    (V m c main_v5 : S32768x1024.Idx → EReal)
      = shapeCast S32768x1024 (m ((c : Thread nD τ).loc main_arg0)) shapeCasts_S8x4096x1024_S32768x1024 := by
  show StableHlo.after hostOps0 (fun b => m (c, b)) (Proc.devRef .tc main_v5) = _
  after_results <;> rfl

/-- The row the region reads is the row of cosines of the angles. -/
theorem entry_row (c : Dev nD) :
    (V m c main_v4 : S1x1024.Idx → EReal) = cosRow (m ((c : Thread nD τ).loc main_arg1)) := by
  show StableHlo.after hostOps0 (fun b => m (c, b)) (Proc.devRef .tc main_v4) = _
  after_results <;> rfl

/-! ## What a point writes back -/

theorem zero_offsets : (![0, 0] : Fin 2 → Nat) = fun _ => 0 := funext fun a => by fin_cases a <;> rfl

/-- The block indices over the grid: the input matrix's block moves with the output's down the rows, both stay in
    column block 0, the row of cosines stays at its one block, and the output's row block is at most 15. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 15 :=
  (by decide +kernel : ∀ t : Fin grid0.N, _)

/-- Every one of the 16 row blocks is some point's. -/
theorem block_onto : ∀ q0 : Fin 16, ∃ t : Fin cfg0.N, win0_2.index t = ![q0.val, 0] :=
  (by decide +kernel : ∀ q0 : Fin 16, ∃ t : Fin grid0.N, win0_2.index t = ![q0.val, 0])

/-- What point `t` writes back is block `t` of the whole matrix's map against the row of cosines. -/
theorem flushed_eq (c : Dev nD) (t : Fin cfg0.N) :
    (dats m 0 c).flushed 2 t
      = ((cfg0.win 2).blk t).view.read (Elt Ideal) (cosTimesRow (n := 32768) (V m c main_v5) (V m c main_v4)) := by
  show (cfg0.win 2).cut (grid0.coords t) ((dats m 0 c).after 2 t) = _
  rw [after0_2]
  unfold out0_2
  rw [View.canon_unit_zero zero_offsets]
  simp only [View.ld_unit_zero (S := S2048x1024) zero_offsets, View.ld_unit_zero (S := S1x1024) zero_offsets]
  rw [pay_eq]
  obtain ⟨e0, e1, e2, e3, e4, e5⟩ := block_indices t
  funext j
  show Ideal.cos (V m c main_v5 (((cfg0.win 0).blk t).view.emb j))
        * V m c main_v4 (((cfg0.win 1).blk t).view.emb (ix2 (0 : Fin 1) (j 1) : S1x1024.Idx))
      = Ideal.cos (V m c main_v5 (((cfg0.win 2).blk t).view.emb j))
        * V m c main_v4 (ix2 (0 : Fin 1) ((((cfg0.win 2).blk t).view.emb j) 1) : S1x1024.Idx)
  have hj0 : (j 0).val < 2048 := (j 0).isLt
  have hj1 : (j 1).val < 1024 := (j 1).isLt
  have h0 : ((cfg0.win 0).blk t).view.emb j = ((cfg0.win 2).blk t).view.emb j := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 1024 + 1 * (j 1).val = win0_2.index t (1 : Fin 2) * 1024 + 1 * (j 1).val; omega
  have h1 : ((cfg0.win 1).blk t).view.emb (ix2 (0 : Fin 1) (j 1) : S1x1024.Idx)
      = (ix2 (0 : Fin 1) ((((cfg0.win 2).blk t).view.emb j) 1) : S1x1024.Idx) := by
    funext a; apply Fin.ext
    match a with
    | ⟨0, _⟩ => show win0_1.index t (0 : Fin 2) * 1 + 1 * 0 = 0; omega
    | ⟨1, _⟩ => show win0_1.index t (1 : Fin 2) * 1024 + 1 * (j 1).val = win0_2.index t (1 : Fin 2) * 1024 + 1 * (j 1).val; omega
  rw [h0, h1]

/-! ## The blocks tile the matrix -/

/-- An entry of the matrix is in point `t`'s block iff each coordinate is in the block's range on its axis. -/
theorem mem_blk (t : Fin cfg0.N) (i : S32768x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v6).slice (win0_2.rect t)).set ↔ _
  rw [View.set_slice_whole, Rect.mem_set_unit]
  exact Iff.rfl

/-- Every entry is written back by some point: row `r` by the point whose row block is `r / 2048`. -/
theorem covered (i : S32768x1024.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  obtain ⟨t, ht⟩ := block_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1024 ≤ (i 1).val ∧ (i 1).val < win0_2.index t (1 : Fin 2) * 1024 + 1024
    omega

/-- The output matrix after the run: the whole input matrix mapped entry by entry against the row of cosines. -/
theorem final (c : Dev nD) :
    (dats m 0 c).arrAt 2 cfg0.N = cosTimesRow (n := 32768) (V m c main_v5) (V m c main_v4) :=
  (dats m 0 c).arrAt_eq_of_cover 2 _ (fun t _ => flushed_eq m c t) covered

end Cert.KernelIdeal.KernelArray

end
-- ==== Proof.KernelRun.lean ====
/-
  The kernel's run, read back: the result array is the specification of the argument arrays.

  After the region the program views the output matrix as [8, 4096, 1024] again. The matrix is the entry-by-entry map
  of the input matrix against the row of cosines, the input matrix is the input array viewed as token rows, and the
  row is the cosines of the angles repeated per head: together, the specification.
-/
import proofs.«100494_j65481071401834_2_alg».proof.Proof.Gen.KernelIdeal.Frame
import proofs.«100494_j65481071401834_2_alg».proof.Proof.KernelArray
import Idealize.ShloMosaic.Lib.Pipeline.FrameSuffix
import Idealize.ShloMosaic.Lib.StableHlo.Run

set_option maxRecDepth 16384

noncomputable section

namespace Cert.KernelIdeal.KernelRun

open Cert.KernelIdeal Cert.KernelIdeal.Gen Idealize.ShloMosaic Idealize.ShloMosaic.TcCoe Idealize.SL.Sem
open Idealize.ShloMosaic.Pipeline (Dat)
open Cert.KernelIdeal.KernelValue Cert.KernelIdeal.KernelArray Cert.WireCos

variable (m : (ℓ : Loc nD τ sig) → Buf (Elt Ideal) ℓ) (ρ : Dev nD → PrngReg)

/-- The one host line after the region: the result array is the output matrix viewed as [8, 4096, 1024], whatever
    the buffers hold when the line runs. -/
theorem tail_eq (W : Valuation τ sig (Elt Ideal)) :
    (StableHlo.after hostOps1 W (Proc.devRef .tc main_v7) : S8x4096x1024.Idx → EReal)
      = shapeCast S8x4096x1024 (W (Proc.devRef .tc main_v6)) shapeCasts_S32768x1024_S8x4096x1024 := by
  after_results <;> rfl

/-- The result array, as the host line after the region leaves it, is the specification of the arguments. -/
theorem result_eq (c : Dev nD) :
    Pipeline.afterTail₀ cfgs (dats m) 0 (V0 m) [hostOps1] c main_v7
      = G (m ((c : Thread nD τ).loc main_arg0)) (m ((c : Thread nD τ).loc main_arg1)) := by
  have hW : (Pipeline.withArrays (cfgs 0).spec c (V0 m c) (fun w => (dats m 0 c).arrAt w (cfgs 0).N)
        (Proc.devRef .tc main_v6) : S32768x1024.Idx → EReal)
      = cosTimesRow (n := 32768) (V m c main_v5) (V m c main_v4) :=
    (Pipeline.withArrays_arr spec0 launch0.win.arr_inj c _ _ 2).trans (final m c)
  unfold Pipeline.afterTail₀
  show StableHlo.after hostOps1 _ (Proc.devRef .tc main_v7) = _
  rw [tail_eq, hW, entry_matrix, entry_row]
  exact whole_eq _ _

/-- The kernel's run: every weakly fair execution terminates with the result array at the specification of the
    argument arrays, which end unchanged. -/
theorem run : θ_run defs (onTc (τ := τ) (main (F := Ideal))) ⟨m, fun _ => 0, ρ⟩ fun r => ∀ c : Dev nD,
      r.2.mem ((c : Thread nD τ).loc main_v7)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelRun

end
-- ==== Proof.lean ====
/-
  The kernel and its reference compute one function on the extended reals:
  `out[b, s, e] = cos x[b, s, e] · cos θ[e mod 64]` for `x` of shape [8, 4096, 1024] and 64 angles `θ`.

  The reference splits the 1024 features into 16 heads of 64 wires, multiplies the cosines of the input by the cosines
  of the angles broadcast over batch, tokens and heads, and flattens back. The kernel prepares ONE row of 1024 cosines
  (the 64 cosines of the angles repeated for each head), views the input as a matrix of 32768 token rows, and over a
  grid of 16 blocks of 2048 rows multiplies the cosine of every entry by the row's entry in the same column; the blocks
  tile the matrix, which is then viewed as [8, 4096, 1024] again. Entry `(b, s, e)` sits at row `b·4096 + s`, column
  `e`, and the row's entry in column `e` is the cosine of the angle of wire `e mod 64`; the cosine is one function on
  both sides and nothing else is computed, so the two results agree at every extended real, with no use of finiteness.

  The three frames are the generated frame runs (the reference's is its run with the result dropped); the
  idealization rewrote nothing, so `preserves` is trivial.
-/
import proofs.«100494_j65481071401834_2_alg».proof.Defs
import proofs.«100494_j65481071401834_2_alg».proof.Proof.Gen.Kernel
import proofs.«100494_j65481071401834_2_alg».proof.Proof.Gen.Kernel.Skeleton
import proofs.«100494_j65481071401834_2_alg».proof.Proof.Gen.Kernel.Launch
import proofs.«100494_j65481071401834_2_alg».proof.Proof.Gen.Kernel.Points
import proofs.«100494_j65481071401834_2_alg».proof.Proof.Gen.Kernel.Frame
import proofs.«100494_j65481071401834_2_alg».proof.Proof.Gen.KernelIdeal
import proofs.«100494_j65481071401834_2_alg».proof.Proof.Gen.KernelIdeal.Skeleton
import proofs.«100494_j65481071401834_2_alg».proof.Proof.Gen.KernelIdeal.Launch
import proofs.«100494_j65481071401834_2_alg».proof.Proof.Gen.KernelIdeal.Points
import proofs.«100494_j65481071401834_2_alg».proof.Proof.Gen.KernelIdeal.Frame
import proofs.«100494_j65481071401834_2_alg».proof.Proof.Gen.ReferenceIdeal
import proofs.«100494_j65481071401834_2_alg».proof.Proof.Gen.ReferenceIdeal.Run
import proofs.«100494_j65481071401834_2_alg».proof.Proof.Gen.ReferenceIdeal.Read
import proofs.«100494_j65481071401834_2_alg».proof.Proof.Gen.Pre_finite_inputs
import proofs.«100494_j65481071401834_2_alg».proof.Proof.RefValue
import proofs.«100494_j65481071401834_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the specification of the argument arrays, and the argument arrays agree. -/
theorem algebraic : Cert.algebraic_KernelIdeal_ReferenceIdeal := by
  intro m ρ m' ρ' _ hagree
  refine ⟨fun c => Cert.WireCos.G (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
